-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x4096x1024 : Shape := ⟨3, ![32, 4096, 1024]⟩
abbrev S_ : Shape := ⟨0, ![]⟩

class Facts : Prop where
  bcast_S_S32x4096x1024 : S_.BroadcastsInDim S32x4096x1024 (![] : Fin 0 → Fin S32x4096x1024.rank)
  reducesTo_S32x4096x1024_S_d0_1_2 : S32x4096x1024.ReducesTo [0, 1, 2] S_
  h_S_ : 0 < S_.numel

variable [Facts]

def fn {F : FTy → Type} [FloatOps F] (main_arg0 : FVec F S32x4096x1024 .f32) : IVec S_ 1 :=
  let main_v0 : FVec F S32x4096x1024 .f32 := Host.absf main_arg0
  let main_cst : FVec F S_ .f32 := constant S_ .f32 0x7F800000#32
  let main_v1 : FVec F S32x4096x1024 .f32 := broadcastInDim S32x4096x1024 ![] bcast_S_S32x4096x1024 main_cst
  let main_v2 : IVec S32x4096x1024 1 := cmpf .olt main_v0 main_v1
  let main_c : IVec S_ 1 := constantI S_ 1 1#1
  let main_v3 : IVec S_ 1 := (fun x v => Host.reduce IntOp.andi x v reducesTo_S32x4096x1024_S_d0_1_2 h_S_) main_v2 main_c
  main_v3
-- ==== Kernel.lean ====
abbrev S32x4096x1024 : Shape := ⟨3, ![32, 4096, 1024]⟩
abbrev S131072x1024 : Shape := ⟨2, ![131072, 1024]⟩
abbrev S2048x1024 : Shape := ⟨2, ![2048, 1024]⟩

abbrev nBuf : Space → Nat
  | .hbm => 4
  | .vmem => 4
  | .smem => 0
  | _ => 0

abbrev bufTy : (tb : Table) → Fin (tcTables nBuf tb) → BufTy
  | .hbm, ⟨0, _⟩ => ⟨S32x4096x1024, .f32⟩
  | .hbm, ⟨1, _⟩ => ⟨S131072x1024, .f32⟩
  | .hbm, ⟨2, _⟩ => ⟨S131072x1024, .f32⟩
  | .hbm, ⟨3, _⟩ => ⟨S32x4096x1024, .f32⟩
  | .local _ .vmem, ⟨0, _⟩ => ⟨S2048x1024, .f32⟩
  | .local _ .vmem, ⟨1, _⟩ => ⟨S2048x1024, .f32⟩
  | .local _ .vmem, ⟨2, _⟩ => ⟨S2048x1024, .f32⟩
  | .local _ .vmem, ⟨3, _⟩ => ⟨S2048x1024, .f32⟩
  | _, _ => ⟨S32x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  shapeCasts_S32x4096x1024_S131072x1024 : S32x4096x1024.ShapeCasts S131072x1024
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  shapeCasts_S131072x1024_S32x4096x1024 : S131072x1024.ShapeCasts S32x4096x1024
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x1024.size a ≤ S131072x1024.size a
  hwx0_0 : ∀ i : grid0.Coords, EltTy.bits .f32 = 32 ∨ (Rect.block (s := S131072x1024) S2048x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x1024.size a ≤ S131072x1024.size a
  hwx0_1 : ∀ i : grid0.Coords, EltTy.bits .f32 = 32 ∨ (Rect.block (s := S131072x1024) S2048x1024.size (cc0_transform_1 i) (hinb0_1 i)).WholeWords (EltTy.packing .f32)

variable [Facts₀]

abbrev win0_0 : Pipeline.Window sig grid0 :=
  Pipeline.Window.ofSpec (Memref.whole main_v0) S2048x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S2048x1024.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where
  halias0_1 : Pipeline.Aliased win0 0 1

variable [Facts]
-- ==== ReferenceIdeal.lean ====
abbrev S32x4096x1024 : Shape := ⟨3, ![32, 4096, 1024]⟩
abbrev S_ : Shape := ⟨0, ![]⟩

abbrev nBuf : Space → Nat
  | .hbm => 6
  | .vmem => 0
  | .smem => 0
  | _ => 0

abbrev bufTy : (tb : Table) → Fin (tcTables nBuf tb) → BufTy
  | .hbm, ⟨0, _⟩ => ⟨S32x4096x1024, .f32⟩
  | .hbm, ⟨1, _⟩ => ⟨S32x4096x1024, .f32⟩
  | .hbm, ⟨2, _⟩ => ⟨S_, .f32⟩
  | .hbm, ⟨3, _⟩ => ⟨S32x4096x1024, .f32⟩
  | .hbm, ⟨4, _⟩ => ⟨S32x4096x1024, .f32⟩
  | .hbm, ⟨5, _⟩ => ⟨S32x4096x1024, .f32⟩
  | _, _ => ⟨S32x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]

class Facts₀ : Prop where
  bcast_S_S32x4096x1024 : S_.BroadcastsInDim S32x4096x1024 (![] : Fin 0 → Fin S32x4096x1024.rank)

variable [Facts₀]

class Facts : Prop extends Facts₀ where

variable [Facts]
-- ==== Proof.Decrement.lean ====
/-
  The function both programs compute, one element at a time: `v ↦ v − max(⌈v⌉, 1)`.

  For `v > 0` this is `v − ⌈v⌉` (the fractional part shifted into `(−1, 0]`), for `v ≤ 0` it is `v − 1`; nothing
  below needs that case split — only that each program applies this ONE scalar function at every element,
  and that a reshape merely renames the element's index.

  `dec` is the scalar function over any float instance, written with the vector unit's `ceil` and the splatted
  word `0x3F800000` (the float one). `decAll` applies it at every index of an array of any shape. Three facts:
  • a block's payload — subtract, from the loaded block, the maximum of its ceiling and a splat of one — is
    `decAll` of the block (`payload_eq`: the body's same-shape cast is the identity);
  • `decAll` commutes with a reshape (`decAll_shapeCast`), so reshaping, applying it and reshaping back is
    applying it (`shapeCast_decAll_shapeCast`);
  • at the ideal values the host's spelling — `stablehlo.ceil`, a constant broadcast in dimensions — is the
    same function: the host's ceiling and the vector unit's are both `⌈·⌉` on the extended reals, fixing the
    infinities, and a broadcast constant is a splat (`host_eq`).
-/
import Idealize.ShloMosaic.PureOps
import Idealize.ShloMosaic.PureOps.Ideal
import Idealize.ShloMosaic.Lib.Pipeline.Value
import Idealize.ShloMosaic.Lib.KernelVsHost

noncomputable section

namespace Cert.Decrement

open Idealize.ShloMosaic

variable {F : FTy → Type} [FloatOps F]

/-- One element: `v − max(⌈v⌉, 1)`. -/
def dec (v : F .f32) : F .f32 :=
  FloatOps.subf v (FloatOps.maximumf (FloatOps.ceil v) (Scalar.ofBits .f32 0x3F800000#32))

/-- Every element of an array, whatever its shape. -/
def decAll {s : Shape} (x : FVec F s .f32) : FVec F s .f32 := fun i => dec (x i)

theorem decAll_apply {s : Shape} (x : FVec F s .f32) (i : s.Idx) : decAll x i = dec (x i) := rfl

/-- The body's arithmetic on a loaded block `v`: its cast to its own shape is `v`, and the rest is
    `decAll` spelt with the vector operations. -/
theorem payload_eq {s : Shape} (v : FVec F s .f32) (h : s.ShapeCasts s) :
    subf (shapeCast s v h) (maximumf (ceil (shapeCast s v h)) (broadcast s (Scalar.ofBits .f32 0x3F800000#32)))
      = decAll v := by
  rw [shapeCast_self]
  rfl

/-- Applying the function after a reshape is reshaping after applying it: a reshape only renames indices. -/
theorem decAll_shapeCast {s t : Shape} (x : FVec F s .f32) (h : s.ShapeCasts t) :
    decAll (shapeCast t x h) = shapeCast t (decAll x) h := rfl

/-- Reshape, apply, reshape back: the function applied to the array as it was. -/
theorem shapeCast_decAll_shapeCast {s t : Shape} (x : FVec F s .f32) (h : s.ShapeCasts t) (h' : t.ShapeCasts s) :
    shapeCast s (decAll (shapeCast t x h)) h' = decAll x := by
  rw [decAll_shapeCast, shapeCast_shapeCast]

/-- The host's spelling, at the ideal values: `x − max(ceil x, broadcast 1)` with the host's ceiling and a
    constant broadcast in dimensions. Both ceilings are `⌈·⌉` on the extended reals and the broadcast constant is
    the splat of the same word, so element by element this is `dec`. -/
theorem host_eq {s t : Shape} (x : FVec Ideal t .f32) (dims : Fin s.rank → Fin t.rank) (h : s.BroadcastsInDim t dims) :
    subf x (maximumf (Host.ceil x) (broadcastInDim t dims h (constant s .f32 0x3F800000#32)))
      = decAll x := by
  rw [broadcastInDim_constant]
  rfl

end Cert.Decrement

end
-- ==== Proof.KernelValue.lean ====
/-
  What the kernel's result array holds after a run, as ONE function of the argument array.

  The program views its argument `x : f32[32, 4096, 1024]` as 131072 rows of 1024 (a reshape: the element at
  `(b, s, d)` is row `4096·b + s`, column `d`), runs a grid of 64 points over the rows — point `t` takes rows
  `2048·t … 2048·t + 2047`, all 1024 columns, applies `v ↦ v − max(⌈v⌉, 1)` to every element of that block and
  writes the block back at the same rows of the output — and views the 131072 × 1024 output as
  `[32, 4096, 1024]` again.

  • `rows_entry`: the rows array, as the grid finds it, is the argument reshaped.
  • `written_back`: what point `t` writes back is block `t` of `decAll` of the rows array: the input block and the
    output block of a point sit at the same rows (`same_rows`), and the body's arithmetic is `decAll` of the block.
  • `covered`: row `r` lies in the block of point `r / 2048`; the 64 blocks tile the array.
  • `rows_final`: so after the grid the output rows array is `decAll` of the rows array, whole.
  • `result_eq`: the reshape back undoes the first reshape around an index-by-index function, so the result is
    `decAll x`.
  • `run`: every execution ends with the result at `decAll x` and the argument as it was.
-/
import proofs.«105505_j24507083391506_2_alg».proof.Proof.Gen.KernelIdeal.Frame
import proofs.«105505_j24507083391506_2_alg».proof.Proof.Decrement
import Idealize.ShloMosaic.Lib.Pipeline.Value
import Idealize.ShloMosaic.Lib.StableHlo.Run

set_option maxRecDepth 16384

noncomputable section

namespace Cert.KernelIdeal.Rows

open Idealize.ShloMosaic Idealize.ShloMosaic.TcCoe Idealize.SL.Sem
open Idealize.ShloMosaic.Pipeline (Dat Cfg Window)
open Cert.KernelIdeal Cert.KernelIdeal.Gen Cert.Decrement

variable {F : FTy → Type} [FloatOps F]
variable (m : (ℓ : Loc nD τ sig) → Buf (Elt F) ℓ) (ρ : Dev nD → PrngReg)

/-- The body loads and stores its whole 2048 × 1024 buffers: offsets zero on both axes. -/
theorem offsets_zero : (![0, 0] : Fin 2 → Nat) = fun _ => 0 := funext fun a => by fin_cases a <;> rfl

/-- The rows array as the grid finds it: the argument, reshaped to 131072 rows of 1024. -/
theorem rows_entry (c : Dev nD) :
    (V m c main_v0 : S131072x1024.Idx → Elt F .f32)
      = shapeCast S131072x1024 (m ((c : Thread nD τ).loc main_arg0)) shapeCasts_S32x4096x1024_S131072x1024 := by
  show StableHlo.after hostOps0 (fun b => m (c, b)) (Proc.devRef .tc main_v0) = _
  after_results
  rfl

/-- The body's arithmetic on a loaded block is `decAll` of the block. -/
theorem block_payload (x0 : Vec F S2048x1024 .f32) : k0_pay1 x0 = decAll x0 :=
  payload_eq x0 shapeCasts_S2048x1024_S2048x1024

/-- At every grid point the input block and the output block are the same block of rows, and the only block of
    columns. -/
theorem same_rows : ∀ t : Fin cfg0.N, win0_0.index t (0 : Fin 2) = win0_1.index t (0 : Fin 2)
    ∧ win0_0.index t (1 : Fin 2) = win0_1.index t (1 : Fin 2) :=
  (by decide +kernel : ∀ t : Fin grid0.N, _)

/-- Each of the 64 blocks of rows is some point's output block. -/
theorem point_of_block : ∀ q : Fin 64, ∃ t : Fin cfg0.N, win0_1.index t = ![q.val, 0] :=
  (by decide +kernel : ∀ q : Fin 64, ∃ t : Fin grid0.N, win0_1.index t = ![q.val, 0])

/-- WHAT POINT `t` WRITES BACK: block `t` of `decAll` of the rows array as the grid finds it. -/
theorem written_back (c : Dev nD) (t : Fin cfg0.N) :
    (dats m 0 c).flushed 1 t = ((cfg0.win 1).blk t).view.read (Elt F) (decAll (V m c main_v0)) := by
  show (cfg0.win 1).cut (grid0.coords t) ((dats m 0 c).after 1 t) = _
  rw [after0_1]
  unfold out0_1
  rw [View.canon_unit_zero offsets_zero]
  simp only [View.ld_unit_zero (S := S2048x1024) offsets_zero]
  rw [block_payload]
  obtain ⟨e0, e1⟩ := same_rows t
  funext j
  show dec (V m c main_v0 (((cfg0.win 0).blk t).view.emb j)) = dec (V m c main_v0 (((cfg0.win 1).blk t).view.emb j))
  have h0 : ((cfg0.win 0).blk t).view.emb j = ((cfg0.win 1).blk t).view.emb j := by
    funext a; apply Fin.ext
    match a with
    | ⟨0, _⟩ => show win0_0.index t (0 : Fin 2) * 2048 + 1 * (j 0).val = win0_1.index t (0 : Fin 2) * 2048 + 1 * (j 0).val; omega
    | ⟨1, _⟩ => show win0_0.index t (1 : Fin 2) * 1024 + 1 * (j 1).val = win0_1.index t (1 : Fin 2) * 1024 + 1 * (j 1).val; omega
  rw [h0]

/-- An element of the rows array is in point `t`'s output block iff, on each axis, its coordinate is within the
    block's extent from the block's start. -/
theorem mem_block (t : Fin cfg0.N) (i : S131072x1024.Idx) :
    i ∈ ((cfg0.win 1).blk t).view.set ↔ ∀ a : Fin 2, win0_1.index t a * S2048x1024.size a ≤ (i a).val ∧ (i a).val < win0_1.index t a * S2048x1024.size a + S2048x1024.size a := by
  show i ∈ ((View.whole main_v1).slice (win0_1.rect t)).set ↔ _
  rw [View.set_slice_whole, Rect.mem_set_unit]
  exact Iff.rfl

/-- THE COVER: row `r` is in the block of rows `r / 2048`, which some point writes back. -/
theorem covered (i : S131072x1024.Idx) :
    ∃ t : Fin cfg0.N, (cfg0.win 1).flush t = true ∧ i ∈ ((cfg0.win 1).blk t).view.set := by
  have hi0 : (i 0).val < 131072 := (i 0).isLt
  have hi1 : (i 1).val < 1024 := (i 1).isLt
  obtain ⟨t, ht⟩ := point_of_block ⟨(i 0).val / 2048, by omega⟩
  have q0 : win0_1.index t (0 : Fin 2) = (i 0).val / 2048 := congrFun ht 0
  have q1 : win0_1.index t (1 : Fin 2) = 0 := congrFun ht 1
  refine ⟨t, flush0_1 t, ?_⟩
  rw [mem_block]
  intro a
  match a with
  | ⟨0, _⟩ => show win0_1.index t (0 : Fin 2) * 2048 ≤ (i 0).val ∧ (i 0).val < win0_1.index t (0 : Fin 2) * 2048 + 2048; omega
  | ⟨1, _⟩ => show win0_1.index t (1 : Fin 2) * 1024 ≤ (i 1).val ∧ (i 1).val < win0_1.index t (1 : Fin 2) * 1024 + 1024; omega

/-- THE OUTPUT ROWS ARRAY after the grid: `decAll` of the rows array, whole. -/
theorem rows_final (c : Dev nD) : (dats m 0 c).arrAt 1 cfg0.N = decAll (V m c main_v0) :=
  (dats m 0 c).arrAt_eq_of_cover 1 _ (fun t _ => written_back m c t) covered

/-- THE RESULT: the output rows array viewed as `[32, 4096, 1024]` again is `decAll` of the argument. -/
theorem result_eq (c : Dev nD) :
    (Pipeline.afterTail₀ cfgs (dats m) 0 (V0 m) [hostOps1] c main_v2 : S32x4096x1024.Idx → Elt F .f32)
      = decAll (m ((c : Thread nD τ).loc main_arg0)) := by
  unfold Pipeline.afterTail₀
  show StableHlo.after hostOps1 _ (Proc.devRef .tc main_v2) = _
  after_results
  rw [show Pipeline.withArrays (cfgs 0).spec c (V0 m c) (fun w => (dats m 0 c).arrAt w (cfgs 0).N) (Proc.tc.devRef main_v1)
        = (dats m 0 c).arrAt 1 cfg0.N from Pipeline.withArrays_arr spec0 launch0.win.arr_inj c _ _ 1,
    rows_final, rows_entry]
  exact shapeCast_decAll_shapeCast _ _ _

/-- THE RUN: every weakly fair execution terminates, nothing faulting, with the result array at `decAll` of the
    argument array and the argument array as it was. -/
theorem run : θ_run defs (onTc (τ := τ) (main (F := F))) ⟨m, fun _ => 0, ρ⟩ fun r => ∀ c : Dev nD,
      r.2.mem ((c : Thread nD τ).loc main_v2) = decAll (m ((c : Thread nD τ).loc main_arg0))
      ∧ r.2.mem ((c : Thread nD τ).loc main_arg0) = m ((c : Thread nD τ).loc main_arg0) :=
  (θ_run defs _ _).mono (fun r h c =>
      ⟨((h c).2 main_v2 (Pipeline.mem_restRefs_of main_v2 (by decide) (by decide))).trans (result_eq m c),
        ((h c).2 main_arg0 (Pipeline.mem_restRefs_of main_arg0 (by decide) (by decide))).trans (W_main_arg0 m (dats m) c)⟩)
    (run_main m ρ)

end Cert.KernelIdeal.Rows

end
-- ==== Proof.lean ====
/-
  Both programs compute, at every element `v` of `x : f32[32, 4096, 1024]`, the value `v − max(⌈v⌉, 1)`.

  The reference does so directly on the host: ceiling, a broadcast constant one, maximum, subtract. The kernel views
  `x` as 131072 rows of 1024, lets a grid of 64 points each rewrite a block of 2048 rows with the same formula on the
  vector unit, and views the rows as `[32, 4096, 1024]` again. At the ideal values the two ceilings are one function
  (`⌈·⌉` on the extended reals, the infinities fixed), the constants are one word, and the reshapes only rename
  indices around an element-by-element function; so the results are equal element by element, for every input —
  no law of arithmetic is used and finiteness of the input is never needed.

  `Cert.Decrement` states the element's function (`dec`, `decAll`) and its three spellings; `Cert.KernelIdeal.Rows`
  reads the kernel's run to `decAll x`; here the reference's run is read to the same term and the five claims are
  assembled. The idealization rewrote no operation of the kernel, so there is nothing for `preserves` to state.
-/
import proofs.«105505_j24507083391506_2_alg».proof.Defs
import proofs.«105505_j24507083391506_2_alg».proof.Proof.Gen.Kernel
import proofs.«105505_j24507083391506_2_alg».proof.Proof.Gen.Kernel.Skeleton
import proofs.«105505_j24507083391506_2_alg».proof.Proof.Gen.Kernel.Launch
import proofs.«105505_j24507083391506_2_alg».proof.Proof.Gen.Kernel.Points
import proofs.«105505_j24507083391506_2_alg».proof.Proof.Gen.Kernel.Frame
import proofs.«105505_j24507083391506_2_alg».proof.Proof.Gen.KernelIdeal
import proofs.«105505_j24507083391506_2_alg».proof.Proof.Gen.KernelIdeal.Skeleton
import proofs.«105505_j24507083391506_2_alg».proof.Proof.Gen.KernelIdeal.Launch
import proofs.«105505_j24507083391506_2_alg».proof.Proof.Gen.KernelIdeal.Points
import proofs.«105505_j24507083391506_2_alg».proof.Proof.Gen.KernelIdeal.Frame
import proofs.«105505_j24507083391506_2_alg».proof.Proof.Gen.ReferenceIdeal
import proofs.«105505_j24507083391506_2_alg».proof.Proof.Gen.Pre_finite_inputs
import proofs.«105505_j24507083391506_2_alg».proof.Proof.Gen.ReferenceIdeal.Run
import proofs.«105505_j24507083391506_2_alg».proof.Proof.Gen.ReferenceIdeal.Read
import proofs.«105505_j24507083391506_2_alg».proof.Proof.Decrement
import proofs.«105505_j24507083391506_2_alg».proof.Proof.KernelValue
import Idealize.ShloMosaic.Adequacy
import Idealize.ShloMosaic.Init

noncomputable section

namespace Cert.Proof

open Idealize.ShloMosaic Idealize.ShloMosaic.TcCoe Idealize.SL.Sem

/-- The word-level kernel runs, nothing faulting, and leaves its argument as it was. -/
theorem frame_kernel : Cert.frame_Kernel := fun m ρ _ => Cert.Kernel.Gen.frame m ρ

/-- So does the kernel read at the ideal values. -/
theorem frame_kernelIdeal : Cert.frame_KernelIdeal := fun m ρ _ => Cert.KernelIdeal.Gen.frame m ρ

/-- The reference is five host operations in a row: it runs, and writes only its own results. -/
theorem frame_referenceIdeal : Cert.frame_ReferenceIdeal := fun m ρ _ =>
  (θ_run Cert.ReferenceIdeal.defs _ _).mono (fun _ h c => (h c).2) (Cert.ReferenceIdeal.Value.run (F := Ideal) m ρ)

/-- No operation of the kernel was rewritten for the ideal reading. -/
theorem preserves : Cert.preserves_Kernel_KernelIdeal := trivial

/-- From memories agreeing on `x`, both programs end with their result at `decAll x`: the kernel by its run read
    through its blocks and reshapes, the reference because its term is the host's spelling of the same function. -/
theorem algebraic : Cert.algebraic_KernelIdeal_ReferenceIdeal := by
  intro m ρ m' ρ' _ hagree
  refine ⟨_, Cert.KernelIdeal.Rows.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [hagree c]
  exact Cert.Decrement.host_eq _ _ _

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
